-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x2 : Shape := ⟨2, ![800000, 2]⟩
abbrev S256x128 : Shape := ⟨2, ![256, 128]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x128 .f32) (main_arg1 : IVec S800000x2 32) (main_arg2 : FVec F S256x128 .f32) (main_arg3 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x128 : Shape := ⟨2, ![50000, 128]⟩
abbrev S800000x2 : Shape := ⟨2, ![800000, 2]⟩
abbrev S256x128 : Shape := ⟨2, ![256, 128]⟩
abbrev S256 : Shape := ⟨1, ![256]⟩
abbrev S800000x1 : Shape := ⟨2, ![800000, 1]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S128x256 : Shape := ⟨2, ![128, 256]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 48
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S256x128, .f32⟩
  | .hbm, ⟨3, _⟩ => ⟨S256, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000x128, .f32⟩
  | .hbm, ⟨37, _⟩ => ⟨S_, .f32⟩
  | .hbm, ⟨38, _⟩ => ⟨S50000x128, .f32⟩
  | .hbm, ⟨39, _⟩ => ⟨S850000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S128x256, .f32⟩
  | .hbm, ⟨45, _⟩ => ⟨S128x256, .bf16⟩
  | .hbm, ⟨46, _⟩ => ⟨S1x256, .f32⟩
  | .hbm, ⟨47, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S256x128_S128x256_1_0 : S256x128.Transposes [1, 0] S128x256
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x2 : Shape := ⟨2, ![800000, 2]⟩
abbrev S256x128 : Shape := ⟨2, ![256, 128]⟩
abbrev S256 : Shape := ⟨1, ![256]⟩
abbrev S800000x1 : Shape := ⟨2, ![800000, 1]⟩
abbrev S800000 : Shape := ⟨1, ![800000]⟩
abbrev S50000 : Shape := ⟨1, ![50000]⟩
abbrev S850000 : Shape := ⟨1, ![850000]⟩
abbrev S128x256 : Shape := ⟨2, ![128, 256]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S256x128, .f32⟩
  | .hbm, ⟨3, _⟩ => ⟨S256, .f32⟩
  | .hbm, ⟨4, _⟩ => ⟨S800000x1, .i32⟩
  | .hbm, ⟨5, _⟩ => ⟨S800000, .i32⟩
  | .hbm, ⟨6, _⟩ => ⟨S800000x1, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S128x256, .f32⟩
  | .hbm, ⟨12, _⟩ => ⟨S50000x256, .f32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S50000_S850000_d0 : Shape.Concatenates [S800000, S50000] S850000 0
  transposes_S256x128_S128x256_1_0 : S256x128.Transposes [1, 0] S128x256
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.LibSegment.lean ====
/-
  Row gathers and row scatter-adds with ONE index column, read at an index.

  The host programs index a table by a column of E signed words: `idx : [E, 1]`.
  * A gather of rows of `x : [N, K]` (or of entries of `x : [N]`) reads, at row `e`, the table row whose number
    is the word `idx[e, 0]` read signed and clamped into `[0, N - 1]` (`clampRow`).
  * An accumulating scatter of the rows of `upd : [E, K]` (or of the entries of `upd : [E]`) into `x` adds row `e`
    to the table row whose number is `idx[e, 0]` read signed, NOT clamped: a word outside `[0, N)` adds nothing.
    At the ideal instance the result at `(n, k)` is `x (n, k)` plus the sum, over every `e`, of
    `upd (e, k)` if `idx[e, 0] = n` and `0` otherwise.
  Everything is generic in the extents `N`, `E`, `K` and the word width; a program's printed dimension record
  is identified with the record here by `rfl`.
-/
import Idealize.ShloMosaic.Lib.ValueIdx
import Idealize.ShloMosaic.PureOps.Ideal.Laws

noncomputable section

open scoped BigOperators

namespace Idealize.ShloMosaic.SegmentIdx

open Idealize.ShloMosaic Idealize.ShloMosaic.ValueIdx

/-- A signed word clamped to a row number of a table with `N` rows: `min (max v 0) (N - 1)`. -/
def clampRow (N : Nat) (hN : 0 < N) {w : Nat} (v : BitVec w) : Fin N := ⟨min v.toInt.toNat (N - 1), by omega⟩

/-- A signed word that is a row number is its own clamp. -/
theorem clampRow_of_eq {N : Nat} (hN : 0 < N) {w : Nat} (v : BitVec w) (n : Fin N) (h : v.toInt = (n.val : ℤ)) :
    clampRow N hN v = n := by
  apply Fin.ext
  show min v.toInt.toNat (N - 1) = n.val
  rw [h, Int.toNat_natCast]
  have := n.isLt
  omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Gathers -/

section Gather
variable {α : Type}

/-- `x[idx]` for a table of rows: operand `[N, K]`, start indices `[E, 1]`, result `[E, K]`. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e` of the gather is the table's row `clampRow idx[e, 0]`. -/
theorem gatherRows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k) = x (ix2 (clampRow N hN (idx (ix2 e 0))) k) := by
  unfold Host.gather
  congr 1
  funext a
  refine Fin.ext ?_
  match a with
  | ⟨0, _⟩ =>
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E K wf).start (ix2 e k) idx 1 + (gatherRowsDims N E K wf).batchCoord (ix2 e k) 1
      + (gatherRowsDims N E K wf).offCoord (ix2 e k) 1 = _
    rw [GatherDims.batchCoord_eq_zero _ _ _ List.not_mem_nil]
    have hs : (gatherRowsDims N E K wf).start (ix2 e k) idx 1 = 0 := by
      unfold GatherDims.start
      rw [dif_neg (fun h => Nat.one_ne_zero (congrArg Fin.val (List.mem_singleton.mp h)))]
    rw [hs]
    simp only [Nat.add_zero, Nat.zero_add]
    rfl

/-- `x[idx]` for a flat table: operand `[N]`, start indices `[E, 1]`, result `[E]`. -/
abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table's entry `clampRow idx[e, 0]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlatDims N E wf) x idx (ix1 e) = x (ix1 (clampRow N hN (idx (ix2 e 0)))) := by
  unfold Host.gather
  congr 1
  funext a
  obtain rfl : a = 0 := Subsingleton.elim _ _
  refine Fin.ext ?_
  show (gatherFlatDims N E wf).start (ix1 e) idx 0 + (gatherFlatDims N E wf).batchCoord (ix1 e) 0
    + (gatherFlatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlatDims N E wf).startIndexMap from List.mem_singleton.mpr rfl)]
  have hsi : (gatherFlatDims N E wf).siIdx (ix1 e) ⟨List.idxOf (0 : Fin 1) (gatherFlatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Accumulating scatters, at the ideal instance -/

section Scatter

/-- `x.at[idx].add(upd)` for a table of rows: operand `[N, K]`, scatter indices `[E, 1]`, updates `[E, K]`. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat}

/-- Update `(e, k')` lands on `(n, k)` exactly when the word `idx[e, 0]`, read signed, is `n` and `k' = k`. -/
theorem scatterRows_lands (wf : ScatterDims.WF ⟨2, ![N, K]⟩ ⟨2, ![E, 1]⟩ ⟨2, ![E, K]⟩ [1] [0] [0] 1)
    (idx : IVec ⟨2, ![E, 1]⟩ w) (e : Fin E) (k' : Fin K) (n : Fin N) (k : Fin K) :
    (scatterRowsDims N E K wf).resultIdx? (ix2 e k') idx = some (ix2 n k)
      ↔ ((idx (ix2 e 0)).toInt = (n.val : ℤ) ∧ k' = k) := by
  have hs0 : (scatterRowsDims N E K wf).start (ix2 e k') idx 0 = (idx (ix2 e 0)).toInt := by
    unfold ScatterDims.start
    rw [dif_pos (show (0 : Fin 2) ∈ (scatterRowsDims N E K wf).scatterDimsToOperandDims from List.mem_singleton.mpr rfl)]
    have hsi : (scatterRowsDims N E K wf).siIdx (ix2 e k') ⟨List.idxOf (0 : Fin 2) (scatterRowsDims N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatterRowsDims N E K wf).start (ix2 e k') idx 1 = 0 := by
    unfold ScatterDims.start
    rw [dif_neg (fun h => Nat.one_ne_zero (congrArg Fin.val (List.mem_singleton.mp h)))]
  have hw0 : (scatterRowsDims N E K wf).window (ix2 e k') 0 = 0 := rfl
  have hw1 : (scatterRowsDims N E K wf).window (ix2 e k') 1 = k'.val := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      rw [hs0, hw0] at hin0
      refine ⟨?_, Fin.ext ?_⟩
      · change ((idx (ix2 e 0)).toInt + ((0 : ℕ) : ℤ)).toNat = n.val at h0
        omega
      · change ((0 : ℤ) + (k'.val : ℤ)).toNat = k.val at h1
        omega
    · exact absurd h (by simp)
  · rintro ⟨hv, rfl⟩
    have hin0 : 0 ≤ (scatterRowsDims N E K wf).start (ix2 e k') idx 0 + (scatterRowsDims N E K wf).window (ix2 e k') 0
        ∧ (scatterRowsDims N E K wf).start (ix2 e k') idx 0 + (scatterRowsDims N E K wf).window (ix2 e k') 0
          < (⟨2, ![N, K]⟩ : Shape).size 0 := by
      rw [hs0, hw0, hv]
      have := n.isLt
      constructor
      · omega
      · show ((n.val : ℤ) + ((0 : ℕ) : ℤ)) < (N : ℤ)
        omega
    have hin1 : 0 ≤ (scatterRowsDims N E K wf).start (ix2 e k') idx 1 + (scatterRowsDims N E K wf).window (ix2 e k') 1
        ∧ (scatterRowsDims N E K wf).start (ix2 e k') idx 1 + (scatterRowsDims N E K wf).window (ix2 e k') 1
          < (⟨2, ![N, K]⟩ : Shape).size 1 := by
      rw [hs1, hw1]
      have := k'.isLt
      constructor
      · omega
      · show ((0 : ℤ) + (k'.val : ℤ)) < (K : ℤ)
        omega
    have hin : ∀ a, 0 ≤ (scatterRowsDims N E K wf).start (ix2 e k') idx a + (scatterRowsDims N E K wf).window (ix2 e k') a
        ∧ (scatterRowsDims N E K wf).start (ix2 e k') idx a + (scatterRowsDims N E K wf).window (ix2 e k') a
          < (⟨2, ![N, K]⟩ : Shape).size a := fun a =>
      match a with
      | ⟨0, _⟩ => hin0
      | ⟨1, _⟩ => hin1
    rw [dif_pos hin]
    refine congrArg some (funext fun a => Fin.ext ?_)
    match a with
    | ⟨0, _⟩ =>
      show ((scatterRowsDims N E K wf).start (ix2 e k') idx 0 + (scatterRowsDims N E K wf).window (ix2 e k') 0).toNat = n.val
      rw [hs0, hw0, hv]
      omega
    | ⟨1, _⟩ =>
      show ((scatterRowsDims N E K wf).start (ix2 e k') idx 1 + (scatterRowsDims N E K wf).window (ix2 e k') 1).toNat = k'.val
      rw [hs1, hw1]
      omega

/-- THE ROW SCATTER-ADD AT AN ENTRY: `x (n, k)` plus, over every update row `e`, `upd (e, k)` when the word
    `idx[e, 0]` is `n`. -/
theorem scatterAddRows_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (n : Fin N) (k : Fin K) :
    Host.scatterAdd (F := Ideal) (scatterRowsDims N E K wf) x idx upd (ix2 n k)
      = x (ix2 n k) + ∑ e : Fin E, if (idx (ix2 e 0)).toInt = (n.val : ℤ) then upd (ix2 e k) else 0 := by
  show x (ix2 n k) + ∑ j ∈ Finset.univ.filter
      (fun j => (scatterRowsDims N E K wf).resultIdx? j idx = some (ix2 n k)), upd j = _
  congr 1
  rw [Finset.sum_filter, sum_idx2]
  refine Finset.sum_congr rfl fun e _ => ?_
  simp only [scatterRows_lands wf idx e _ n k]
  by_cases hv : (idx (ix2 e 0)).toInt = (n.val : ℤ)
  · simp only [hv, true_and, if_true]
    rw [Finset.sum_ite_eq' Finset.univ k (fun k' => upd (ix2 e k'))]
    simp
  · simp only [hv, false_and, if_false]
    exact Finset.sum_const_zero

/-- `x.at[idx].add(upd)` for a flat table: operand `[N]`, scatter indices `[E, 1]`, updates `[E]`. -/
abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `n` exactly when the word `idx[e, 0]`, read signed, is `n`. -/
theorem scatterFlat_lands (wf : ScatterDims.WF ⟨1, ![N]⟩ ⟨2, ![E, 1]⟩ ⟨1, ![E]⟩ [] [0] [0] 1)
    (idx : IVec ⟨2, ![E, 1]⟩ w) (e : Fin E) (n : Fin N) :
    (scatterFlatDims N E wf).resultIdx? (ix1 e) idx = some (ix1 n) ↔ (idx (ix2 e 0)).toInt = (n.val : ℤ) := by
  have hs0 : (scatterFlatDims N E wf).start (ix1 e) idx 0 = (idx (ix2 e 0)).toInt := by
    unfold ScatterDims.start
    rw [dif_pos (show (0 : Fin 1) ∈ (scatterFlatDims N E wf).scatterDimsToOperandDims from List.mem_singleton.mpr rfl)]
    have hsi : (scatterFlatDims N E wf).siIdx (ix1 e) ⟨List.idxOf (0 : Fin 1) (scatterFlatDims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (scatterFlatDims N E wf).window (ix1 e) 0 = 0 := rfl
  unfold ScatterDims.resultIdx?
  constructor
  · intro h
    split at h
    · rename_i hin
      have hf := Option.some.inj h
      have h0 := congrArg (fun f => (f 0).val) hf
      simp only [hs0, hw0] at h0
      have hin0 := hin 0
      rw [hs0, hw0] at hin0
      change ((idx (ix2 e 0)).toInt + ((0 : ℕ) : ℤ)).toNat = n.val at h0
      omega
    · exact absurd h (by simp)
  · intro hv
    have hin0 : 0 ≤ (scatterFlatDims N E wf).start (ix1 e) idx 0 + (scatterFlatDims N E wf).window (ix1 e) 0
        ∧ (scatterFlatDims N E wf).start (ix1 e) idx 0 + (scatterFlatDims N E wf).window (ix1 e) 0
          < (⟨1, ![N]⟩ : Shape).size 0 := by
      rw [hs0, hw0, hv]
      have := n.isLt
      constructor
      · omega
      · show ((n.val : ℤ) + ((0 : ℕ) : ℤ)) < (N : ℤ)
        omega
    have hin : ∀ a, 0 ≤ (scatterFlatDims N E wf).start (ix1 e) idx a + (scatterFlatDims N E wf).window (ix1 e) a
        ∧ (scatterFlatDims N E wf).start (ix1 e) idx a + (scatterFlatDims N E wf).window (ix1 e) a
          < (⟨1, ![N]⟩ : Shape).size a := fun a =>
      match a with
      | ⟨0, _⟩ => hin0
    rw [dif_pos hin]
    refine congrArg some (funext fun a => Fin.ext ?_)
    match a with
    | ⟨0, _⟩ =>
      show ((scatterFlatDims N E wf).start (ix1 e) idx 0 + (scatterFlatDims N E wf).window (ix1 e) 0).toNat = n.val
      rw [hs0, hw0, hv]
      omega

/-- THE FLAT SCATTER-ADD AT AN ENTRY: `x n` plus, over every update `e`, `upd e` when the word `idx[e, 0]` is `n`. -/
theorem scatterAddFlat_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterFlatDims N E wf) x idx upd (ix1 n)
      = x (ix1 n) + ∑ e : Fin E, if (idx (ix2 e 0)).toInt = (n.val : ℤ) then upd (ix1 e) else 0 := by
  show x (ix1 n) + ∑ j ∈ Finset.univ.filter
      (fun j => (scatterFlatDims N E wf).resultIdx? j idx = some (ix1 n)), upd j = _
  congr 1
  rw [Finset.sum_filter, sum_idx1]
  refine Finset.sum_congr rfl fun e _ => ?_
  simp only [scatterFlat_lands wf idx e n]

end Scatter

end Idealize.ShloMosaic.SegmentIdx

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«171751_j88837103550989_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.Algebra.lean ====
/-
  The one law that joins the two sides: normalised neighbourhood sums commute with a linear map.

  Over the reals (embedded in the extended reals), for a family of rows X e (e an edge), row weights ds e,
  a node weight dn, a column w of the weight matrix and a predicate "edge e ends at the node":

      Σ_k ( ( Σ_{e ends at the node} X e k · ds e ) · dn ) · w k
        =  Σ_{e ends at the node} ( Σ_k X e k · w k ) · ( ds e · dn ).

  Left: aggregate the scaled feature rows first, then apply the linear map.  Right: apply the linear map to every
  row first, then aggregate with both scale factors.  The sums over edges are written with an indicator
  (if … then … else 0), the form an accumulating scatter has at the ideal instance.  All the numbers involved are
  real, which is what makes distributivity available.
-/
import Mathlib.Data.EReal.Inv
import Mathlib.Algebra.BigOperators.Ring.Finset

noncomputable section

open scoped BigOperators

namespace Cert.Gcn.Algebra

/-- The embedding of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An indicator of an embedded real is the embedded indicator. -/
theorem coe_ite (p : Prop) [Decidable p] (a : ℝ) : (if p then (a : EReal) else 0) = ((if p then a else 0 : ℝ) : EReal) := by
  split_ifs <;> simp

variable {E K : Type*} [Fintype E] [Fintype K]

/-- The law over the reals. -/
theorem swap_real (hit : E → Prop) [DecidablePred hit] (X : E → K → ℝ) (ds : E → ℝ) (dn : ℝ) (w : K → ℝ) :
    ∑ k, ((∑ e, if hit e then X e k * ds e else 0) * dn) * w k
      = ∑ e, if hit e then (∑ k, X e k * w k) * (ds e * dn) else 0 := by
  simp only [Finset.sum_mul]
  rw [Finset.sum_comm]
  refine Finset.sum_congr rfl fun e _ => ?_
  by_cases h : hit e
  · simp only [h, if_true]
    refine Finset.sum_congr rfl fun k _ => ?_
    ring
  · simp only [h, if_false, zero_mul, Finset.sum_const_zero]

/-- The law over the extended reals, for embedded reals. -/
theorem swap (hit : E → Prop) [DecidablePred hit] (X : E → K → ℝ) (ds : E → ℝ) (dn : ℝ) (w : K → ℝ) :
    ∑ k, ((∑ e, if hit e then (X e k : EReal) * (ds e : EReal) else 0) * (dn : EReal)) * (w k : EReal)
      = ∑ e, if hit e then (∑ k, (X e k : EReal) * (w k : EReal)) * ((ds e : EReal) * (dn : EReal)) else 0 := by
  have hl : ∑ k, ((∑ e, if hit e then (X e k : EReal) * (ds e : EReal) else 0) * (dn : EReal)) * (w k : EReal)
      = ((∑ k, ((∑ e, if hit e then X e k * ds e else 0) * dn) * w k : ℝ) : EReal) := by
    rw [coe_sum]
    refine Finset.sum_congr rfl fun k _ => ?_
    rw [EReal.coe_mul, EReal.coe_mul, coe_sum]
    congr 2
    refine Finset.sum_congr rfl fun e _ => ?_
    rw [← EReal.coe_mul, coe_ite]
  have hr : (∑ e, if hit e then (∑ k, (X e k : EReal) * (w k : EReal)) * ((ds e : EReal) * (dn : EReal)) else 0)
      = ((∑ e, if hit e then (∑ k, X e k * w k) * (ds e * dn) else 0 : ℝ) : EReal) := by
    rw [coe_sum]
    refine Finset.sum_congr rfl fun e _ => ?_
    rw [← coe_ite]
    congr 1
    rw [EReal.coe_mul, EReal.coe_mul, coe_sum]
    simp only [EReal.coe_mul]
  rw [hl, hr, swap_real]

end Cert.Gcn.Algebra

end
-- ==== Proof.Spec.lean ====
/-
  A graph-convolution layer as one function of its arguments, and its two arrangements read at an index.

  Nodes n < 50000 carry feature rows x(n, ·) of width 128; a layer maps them to rows of width 256 with a weight
  matrix W (256 × 128) and a bias b.  The edge list contributes 850000 (source, target) pairs: the 800000 rows of
  the integer argument followed by one self loop per node.  Only two things are used of the edge pairs, so they
  are carried as two opaque columns of words:
    * `dcol`: the raw target word of edge e.  An accumulating scatter adds edge e into node n exactly when this
      word, read signed, IS n (a word outside [0, 50000) adds nothing);
    * `scol`: the source word with a negative value wrapped by +50000.  A gather reads the row whose number is
      this word clamped into [0, 49999]: `row scol e`.
  With d(n) the inverse square root of the in-degree (`dinvOf`), the layer's output is

      out(n, o) = max( Σ_k ( ( Σ_{e → n} x(row e, k) · d(row e) ) · d(n) ) · W(o, k) + b(o), 0 )        (`gcn`)

  which is how the kernel's program arranges it: scale the rows, aggregate them over the incoming edges, scale
  again (`aggScaled`), and only then apply the linear map, bias and rectifier.  The reference applies the linear
  map to every node first and aggregates 256-wide rows weighted by d(source) · d(target) (`refCore`).  The two
  agree when x, W and d are real valued (`refCore_eq_gcn`), by the law of Algebra.lean; d is real valued whatever
  the degree is (`dinvOf_real`).
-/
import proofs.«171751_j88837103550989_2_alg».proof.Proof.LibSegment
import proofs.«171751_j88837103550989_2_alg».proof.Proof.LibColumns
import proofs.«171751_j88837103550989_2_alg».proof.Proof.LibDotGeneralPlain
import proofs.«171751_j88837103550989_2_alg».proof.Proof.Algebra
import Idealize.ShloMosaic.Lib.ValueLayout
import Idealize.ShloMosaic.Lib.Pipeline.Value
import Idealize.ShloMosaic.PureOps.Ideal.Laws

noncomputable section

open scoped BigOperators

namespace Cert.Gcn

open Idealize.ShloMosaic Idealize.ShloMosaic.ValueIdx Idealize.ShloMosaic.SegmentIdx

abbrev S0 : Shape := ⟨0, ![]⟩
abbrev SN : Shape := ⟨1, ![50000]⟩
abbrev SE : Shape := ⟨1, ![850000]⟩
abbrev SE0 : Shape := ⟨1, ![800000]⟩
abbrev SEI : Shape := ⟨2, ![800000, 2]⟩
abbrev SE01 : Shape := ⟨2, ![800000, 1]⟩
abbrev SE1 : Shape := ⟨2, ![850000, 1]⟩
abbrev SN1 : Shape := ⟨2, ![50000, 1]⟩
abbrev SNK : Shape := ⟨2, ![50000, 128]⟩
abbrev SEK : Shape := ⟨2, ![850000, 128]⟩
abbrev SNO : Shape := ⟨2, ![50000, 256]⟩
abbrev SEO : Shape := ⟨2, ![850000, 256]⟩
abbrev SOK : Shape := ⟨2, ![256, 128]⟩
abbrev SKO : Shape := ⟨2, ![128, 256]⟩
abbrev SO : Shape := ⟨1, ![256]⟩
abbrev S1O : Shape := ⟨2, ![1, 256]⟩

/-! ## The edge columns, as the programs compute them -/

/-- The source words: column 0 of the edge list, then the node numbers (the self loops). -/
def srcRaw (ei : IVec SEI 32) : IVec SE 32 :=
  concatenate SE 0 [⟨SE0, shapeCast SE0 (extractStridedSlice SE01 ![0, 0] ei (by decide)) (by decide)⟩, ⟨SN, iotaInDim SN 32 0⟩] (show Shape.Concatenates [SE0, SN] SE 0 by decide)

/-- The target words: column 1 of the edge list, then the node numbers. -/
def dstRaw (ei : IVec SEI 32) : IVec SE 32 :=
  concatenate SE 0 [⟨SE0, shapeCast SE0 (extractStridedSlice SE01 ![0, 1] ei (by decide)) (by decide)⟩, ⟨SN, iotaInDim SN 32 0⟩] (show Shape.Concatenates [SE0, SN] SE 0 by decide)

/-- A negative word wrapped by +50000 (numpy's indexing from the end), any other word kept. -/
def wrapNeg (v : IVec SE 32) : IVec SE 32 :=
  select (cmpi .slt v (broadcastInDim SE ![] (by decide) (constantI S0 32 0#32)))
    (addi v (broadcastInDim SE ![] (by decide) (constantI S0 32 50000#32))) v

/-- A vector of words as an [850000, 1] column. -/
def asCol (v : IVec SE 32) : IVec SE1 32 := broadcastInDim SE1 ![0] (by decide) v

/-- The row a gather reads for edge `e`: the column's word clamped to a node number. -/
def row (scol : IVec SE1 32) (e : Fin 850000) : Fin 50000 := clampRow 50000 (by decide) (scol (ix2 e 0))

/-! ## The degree normalisation -/

/-- The in-degree: one added per edge at its target word. -/
def degOf (dcol : IVec SE1 32) : FVec Ideal SN .f32 :=
  Host.scatterAdd (F := Ideal) (scatterFlatDims 50000 850000 (by decide))
    (broadcastInDim SN ![] (by decide) (constant (F := Ideal) S0 .f32 0x00000000#32)) dcol
    (broadcastInDim SE ![] (by decide) (constant (F := Ideal) S0 .f32 0x3F800000#32))

/-- The inverse square root of the degree where it is positive, zero elsewhere. -/
def dinvOf (deg : FVec Ideal SN .f32) : FVec Ideal SN .f32 :=
  select (cmpf (F := Ideal) .ogt deg (broadcastInDim SN ![] (by decide) (constant (F := Ideal) S0 .f32 0x00000000#32)))
    (Host.rsqrt deg) (broadcastInDim SN ![] (by decide) (id (constant (F := Ideal) S0 .f32 0x00000000#32)))

/-- It is a real number at every node, whatever the degree: the inverse square root of a positive real, zero at
    +∞ (and the select's zero wherever the degree is not positive). -/
theorem dinvOf_real (deg : FVec Ideal SN .f32) (i : SN.Idx) : ∃ r : ℝ, dinvOf deg i = (r : EReal) := by
  show ∃ r : ℝ, Scalar.select (Ideal.cmp .ogt (deg i) (Ideal.ofBits .f32 0x00000000#32)) (Ideal.rsqrt (deg i))
    (Ideal.ofBits .f32 0x00000000#32) = (r : EReal)
  rw [Ideal.ofBits_zero_f32]
  induction deg i using EReal.rec with
  | bot =>
    refine ⟨0, ?_⟩
    have h0 : Ideal.cmp .ogt (⊥ : EReal) 0 = 0#1 := by simp [Ideal.cmp]
    rw [h0, select_zero]
    exact EReal.coe_zero.symm
  | top =>
    refine ⟨0, ?_⟩
    have h1 : Ideal.cmp .ogt (⊤ : EReal) 0 = 1#1 := by simp [Ideal.cmp]
    rw [h1, select_one]
    exact EReal.coe_zero.symm
  | coe r =>
    by_cases hr : 0 < r
    · refine ⟨(Real.sqrt r)⁻¹, ?_⟩
      have h1 : Ideal.cmp .ogt (r : EReal) 0 = 1#1 := by
        simp [Ideal.cmp, hr]
      rw [h1, select_one]
      show (if r < 0 then (⊥ : EReal) else if r = 0 then ⊤ else (((Real.sqrt r)⁻¹ : ℝ) : EReal)) = _
      rw [if_neg (not_lt.2 hr.le), if_neg hr.ne']
    · refine ⟨0, ?_⟩
      have h0 : Ideal.cmp .ogt (r : EReal) 0 = 0#1 := by
        simp [Ideal.cmp, hr]
      rw [h0, select_zero]
      exact EReal.coe_zero.symm

/-! ## Reading the small layout steps at an index -/

/-- A node vector spread over the 128 feature columns. -/
def spread (d : FVec Ideal SN .f32) : FVec Ideal SNK .f32 :=
  broadcastInDim SNK ![0, 1] (by decide) (broadcastInDim SN1 ![0] (by decide) d)

theorem spread_apply (d : FVec Ideal SN .f32) (n : Fin 50000) (k : Fin 128) : spread d (ix2 n k) = d (ix1 n) := by
  unfold spread
  rw [broadcastInDim_apply ![0, 1] _ _ (ix2 n k) (ix2 n (0 : Fin 1)) (fun a => by
    match a with
    | ⟨0, _⟩ => rfl
    | ⟨1, _⟩ => rfl)]
  exact Cert.Columns.broadcastInDim_a_a1_apply ![0] rfl _ d n 0

/-- A scalar splat reads the scalar. -/
theorem splat_apply {α : Type} (t : Shape) (h : S0.BroadcastsInDim t (![] : Fin 0 → Fin t.rank)) (v : S0.Idx → α) (j : t.Idx) :
    broadcastInDim t ![] h v j = v ix0 :=
  broadcastInDim_apply ![] h v j ix0 (fun a => a.elim0)

/-- The zero constant, splat. -/
theorem zeros_apply (t : Shape) (h : S0.BroadcastsInDim t (![] : Fin 0 → Fin t.rank)) (j : t.Idx) :
    broadcastInDim t ![] h (constant (F := Ideal) S0 .f32 0x00000000#32) j = 0 := by
  rw [splat_apply]
  exact Ideal.ofBits_zero_f32

/-- A column of words read at `(e, 0)` is the vector at `e`. -/
theorem asCol_apply (v : IVec SE 32) (e : Fin 850000) : asCol v (ix2 e 0) = v (ix1 e) :=
  Cert.Columns.broadcastInDim_a_a1_apply ![0] rfl _ v e 0

/-! ## The kernel's arrangement: what the fused kernel is handed -/

/-- Scale the rows, add each into its target node, scale again. -/
def aggScaled (x : FVec Ideal SNK .f32) (dcol scol : IVec SE1 32) (d : FVec Ideal SN .f32) : FVec Ideal SNK .f32 :=
  mulf (Host.scatterAdd (F := Ideal) (scatterRowsDims 50000 850000 128 (by decide))
      (broadcastInDim SNK ![] (by decide) (constant (F := Ideal) S0 .f32 0x00000000#32)) dcol
      (Host.gather (gatherRowsDims 50000 850000 128 (by decide)) (mulf x (spread d)) scol)) (spread d)

theorem aggScaled_apply (x : FVec Ideal SNK .f32) (dcol scol : IVec SE1 32) (d : FVec Ideal SN .f32)
    (n : Fin 50000) (k : Fin 128) :
    aggScaled x dcol scol d (ix2 n k)
      = (∑ e : Fin 850000, if (dcol (ix2 e 0)).toInt = (n.val : ℤ)
          then x (ix2 (row scol e) k) * d (ix1 (row scol e)) else 0) * d (ix1 n) := by
  unfold aggScaled
  rw [mulf_apply, scatterAddRows_apply, zeros_apply, zero_add, spread_apply]
  refine congrArg (· * d (ix1 n)) ?_
  refine Finset.sum_congr rfl fun e _ => ?_
  rw [gatherRows_apply (by decide : 0 < 50000), mulf_apply, spread_apply]
  rfl

/-- The layer's output, in the kernel's arrangement. -/
def gcn (x : FVec Ideal SNK .f32) (W : FVec Ideal SOK .f32) (b : FVec Ideal SO .f32) (dcol scol : IVec SE1 32)
    (d : FVec Ideal SN .f32) : FVec Ideal SNO .f32 :=
  fun i => max ((∑ k : Fin 128, aggScaled x dcol scol d (ix2 (i 0) k) * W (ix2 (i 1) k)) + b (ix1 (i 1))) 0

/-! ## The reference's arrangement -/

/-- Apply the linear map to every node, gather the 256-wide rows, weight them by d(source) · d(target), add
    each into its target node, add the bias, rectify. -/
def refCore (x : FVec Ideal SNK .f32) (W : FVec Ideal SOK .f32) (b : FVec Ideal SO .f32) (dcol scol dcolN : IVec SE1 32)
    (d : FVec Ideal SN .f32) : FVec Ideal SNO .f32 :=
  maximumf (addf (Host.scatterAdd (F := Ideal) (scatterRowsDims 50000 850000 256 (by decide))
      (broadcastInDim SNO ![] (by decide) (constant (F := Ideal) S0 .f32 0x00000000#32)) dcol
      (mulf (Host.gather (gatherRowsDims 50000 850000 256 (by decide))
          (Host.dotGeneral (DotDims.plain 50000 128 256) none x (transpose SKO [1, 0] W (by decide))) scol)
        (broadcastInDim SEO ![0, 1] (by decide) (broadcastInDim SE1 ![0] (by decide)
          (mulf (Host.gather (gatherFlatDims 50000 850000 (by decide)) d scol)
            (Host.gather (gatherFlatDims 50000 850000 (by decide)) d dcolN))))))
      (broadcastInDim SNO ![0, 1] (by decide) (broadcastInDim S1O ![1] (by decide) b)))
    (broadcastInDim SNO ![] (by decide) (constant (F := Ideal) S0 .f32 0x00000000#32))

theorem refCore_apply (x : FVec Ideal SNK .f32) (W : FVec Ideal SOK .f32) (b : FVec Ideal SO .f32)
    (dcol scol dcolN : IVec SE1 32) (d : FVec Ideal SN .f32) (n : Fin 50000) (o : Fin 256) :
    refCore x W b dcol scol dcolN d (ix2 n o)
      = max ((∑ e : Fin 850000, if (dcol (ix2 e 0)).toInt = (n.val : ℤ)
          then (∑ k : Fin 128, x (ix2 (row scol e) k) * W (ix2 o k)) * (d (ix1 (row scol e)) * d (ix1 (row dcolN e)))
          else 0) + b (ix1 o)) 0 := by
  unfold refCore Host.dotGeneral
  rw [maximumf_apply, addf_apply, scatterAddRows_apply, zeros_apply, zero_add]
  refine congrArg₂ max (congrArg₂ (· + ·) ?_ ?_) rfl
  · refine Finset.sum_congr rfl fun e _ => ?_
    rw [mulf_apply, gatherRows_apply (by decide : 0 < 50000)]
    rw [Cert.LibDotGeneralPlain.dotGeneral_plain_apply _ rfl]
    rw [broadcastInDim_apply ![0, 1] _ _ (ix2 e o) (ix2 e (0 : Fin 1)) (fun a => by
      match a with
      | ⟨0, _⟩ => rfl
      | ⟨1, _⟩ => rfl)]
    rw [Cert.Columns.broadcastInDim_a_a1_apply ![0] rfl, mulf_apply,
      gatherFlat_apply (by decide : 0 < 50000), gatherFlat_apply (by decide : 0 < 50000)]
    have ht : ∀ k : Fin 128, transpose SKO [1, 0] W (by decide) (ix2 k o) = W (ix2 o k) :=
      fun k => transpose_ix2_apply W _ k o
    simp only [ht]
    rfl
  · rw [broadcastInDim_apply ![0, 1] _ _ (ix2 n o) (ix2 (0 : Fin 1) o) (fun a => by
      match a with
      | ⟨0, _⟩ => rfl
      | ⟨1, _⟩ => rfl)]
    exact broadcastInDim_apply ![1] _ b (ix2 (0 : Fin 1) o) (ix1 o) (fun a => by
      match a with
      | ⟨0, _⟩ => rfl)

end Cert.Gcn

end
-- ==== Proof.KernelHost.lean ====
/-
  What the host hands the fused kernel, at the ideal instance.

  Before the kernel is launched the host has computed three arrays from the arguments: the aggregated and
  twice-scaled features (`aggScaled`, [50000, 128]), the weight matrix transposed ([128, 256]; its change of float
  format is the identity here) and the bias as a row ([1, 256]).  Each is the composition of the host operations
  that write it, read off the list of operations before the launch.
-/
import proofs.«171751_j88837103550989_2_alg».proof.Proof.Gen.KernelIdeal.Frame
import proofs.«171751_j88837103550989_2_alg».proof.Proof.Spec
import Idealize.ShloMosaic.Lib.StableHlo.Run

noncomputable section

open scoped BigOperators

namespace Cert.Gcn.Kernel

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-! ## The composed term, for any float instance -/

section AnyInstance

variable {F : FTy → Type} [FloatOps F] (m : (ℓ : Loc nD τ sig) → Buf (Elt F) ℓ)

set_option maxRecDepth 8192 in
/-- The composed term of the host operations that write the kernel's first operand, spelt out: the two scatters,
    the gather and the scalings over the edge columns and the degree normalisation. -/
def hostAgg (c : Dev nD) : Buf (Elt F) ((c : Thread nD τ).loc main_v30) :=
  mulf (Host.scatterAdd (F := F) scatter_S50000x128_S850000x1_S850000x128_1_0_0_1 (broadcastInDim S50000x128 ![] bcast_S_S50000x128 (constant (F := F) S_ .f32 0x00000000#32)) (broadcastInDim S850000x1 ![0] bcast_S850000_S850000x1_0 (concatenate S850000 0 [⟨S800000, (shapeCast _ (extractStridedSlice S800000x1 ![0, 1] (m ((c : Thread nD τ).loc main_arg1)) slices_S800000x2_S800000x1_0_1) shapeCasts_S800000x1_S800000)⟩, ⟨S50000, (iotaInDim S50000 32 0)⟩] concatenates_S800000_S50000_S850000_d0)) (Host.gather gather_S50000x128_S850000x1_S850000x128_1_0_n_n_0_1_1128 (mulf (m ((c : Thread nD τ).loc main_arg0)) (broadcastInDim S50000x128 ![0, 1] bcast_S50000x1_S50000x128_0_1 (broadcastInDim S50000x1 ![0] bcast_S50000_S50000x1_0 (select (cmpf (F := F) .ogt (Host.scatterAdd (F := F) scatter_S50000_S850000x1_S850000_n_0_0_1 (broadcastInDim S50000 ![] bcast_S_S50000 (constant (F := F) S_ .f32 0x00000000#32)) (broadcastInDim S850000x1 ![0] bcast_S850000_S850000x1_0 (concatenate S850000 0 [⟨S800000, (shapeCast _ (extractStridedSlice S800000x1 ![0, 1] (m ((c : Thread nD τ).loc main_arg1)) slices_S800000x2_S800000x1_0_1) shapeCasts_S800000x1_S800000)⟩, ⟨S50000, (iotaInDim S50000 32 0)⟩] concatenates_S800000_S50000_S850000_d0)) (broadcastInDim S850000 ![] bcast_S_S850000 (constant (F := F) S_ .f32 0x3F800000#32))) (broadcastInDim S50000 ![] bcast_S_S50000 (constant (F := F) S_ .f32 0x00000000#32))) (Host.rsqrt (Host.scatterAdd (F := F) scatter_S50000_S850000x1_S850000_n_0_0_1 (broadcastInDim S50000 ![] bcast_S_S50000 (constant (F := F) S_ .f32 0x00000000#32)) (broadcastInDim S850000x1 ![0] bcast_S850000_S850000x1_0 (concatenate S850000 0 [⟨S800000, (shapeCast _ (extractStridedSlice S800000x1 ![0, 1] (m ((c : Thread nD τ).loc main_arg1)) slices_S800000x2_S800000x1_0_1) shapeCasts_S800000x1_S800000)⟩, ⟨S50000, (iotaInDim S50000 32 0)⟩] concatenates_S800000_S50000_S850000_d0)) (broadcastInDim S850000 ![] bcast_S_S850000 (constant (F := F) S_ .f32 0x3F800000#32)))) (broadcastInDim S50000 ![] bcast_S_S50000 (id (constant (F := F) S_ .f32 0x00000000#32))))))) (broadcastInDim S850000x1 ![0] bcast_S850000_S850000x1_0 (select (cmpi .slt (concatenate S850000 0 [⟨S800000, (shapeCast _ (extractStridedSlice S800000x1 ![0, 0] (m ((c : Thread nD τ).loc main_arg1)) slices_S800000x2_S800000x1_0_0) shapeCasts_S800000x1_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S800000x1 ![0, 0] (m ((c : Thread nD τ).loc main_arg1)) slices_S800000x2_S800000x1_0_0) shapeCasts_S800000x1_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S800000x1 ![0, 0] (m ((c : Thread nD τ).loc main_arg1)) slices_S800000x2_S800000x1_0_0) shapeCasts_S800000x1_S800000)⟩, ⟨S50000, (iotaInDim S50000 32 0)⟩] concatenates_S800000_S50000_S850000_d0))))) (broadcastInDim S50000x128 ![0, 1] bcast_S50000x1_S50000x128_0_1 (broadcastInDim S50000x1 ![0] bcast_S50000_S50000x1_0 (select (cmpf (F := F) .ogt (Host.scatterAdd (F := F) scatter_S50000_S850000x1_S850000_n_0_0_1 (broadcastInDim S50000 ![] bcast_S_S50000 (constant (F := F) S_ .f32 0x00000000#32)) (broadcastInDim S850000x1 ![0] bcast_S850000_S850000x1_0 (concatenate S850000 0 [⟨S800000, (shapeCast _ (extractStridedSlice S800000x1 ![0, 1] (m ((c : Thread nD τ).loc main_arg1)) slices_S800000x2_S800000x1_0_1) shapeCasts_S800000x1_S800000)⟩, ⟨S50000, (iotaInDim S50000 32 0)⟩] concatenates_S800000_S50000_S850000_d0)) (broadcastInDim S850000 ![] bcast_S_S850000 (constant (F := F) S_ .f32 0x3F800000#32))) (broadcastInDim S50000 ![] bcast_S_S50000 (constant (F := F) S_ .f32 0x00000000#32))) (Host.rsqrt (Host.scatterAdd (F := F) scatter_S50000_S850000x1_S850000_n_0_0_1 (broadcastInDim S50000 ![] bcast_S_S50000 (constant (F := F) S_ .f32 0x00000000#32)) (broadcastInDim S850000x1 ![0] bcast_S850000_S850000x1_0 (concatenate S850000 0 [⟨S800000, (shapeCast _ (extractStridedSlice S800000x1 ![0, 1] (m ((c : Thread nD τ).loc main_arg1)) slices_S800000x2_S800000x1_0_1) shapeCasts_S800000x1_S800000)⟩, ⟨S50000, (iotaInDim S50000 32 0)⟩] concatenates_S800000_S50000_S850000_d0)) (broadcastInDim S850000 ![] bcast_S_S850000 (constant (F := F) S_ .f32 0x3F800000#32)))) (broadcastInDim S50000 ![] bcast_S_S50000 (id (constant (F := F) S_ .f32 0x00000000#32))))))

set_option maxRecDepth 8192 in
set_option maxHeartbeats 25600000 in
/-- The kernel's first operand as the region finds it is that term. -/
theorem V_hostAgg (c : Dev nD) : V m c main_v30 = hostAgg m c := by
  dsimp only [V]
  simp only [hostOps0, hostOps0_1, hostOps0_2, List.flatten_cons, List.flatten_nil, List.append_nil, List.cons_append,
    List.nil_append]
  after_results_simp <;> rfl

end AnyInstance

/-! ## At the ideal instance -/

variable (m : (ℓ : Loc nD τ sig) → Buf (Elt Ideal) ℓ) (ρ : Dev nD → PrngReg)

abbrev argX (c : Dev nD) : FVec Ideal SNK .f32 := m ((c : Thread nD τ).loc main_arg0)
abbrev argE (c : Dev nD) : IVec SEI 32 := m ((c : Thread nD τ).loc main_arg1)
abbrev argW (c : Dev nD) : FVec Ideal SOK .f32 := m ((c : Thread nD τ).loc main_arg2)
abbrev argB (c : Dev nD) : FVec Ideal SO .f32 := m ((c : Thread nD τ).loc main_arg3)

/-- The target column, the wrapped source column and the degree normalisation of this run's edge list. -/
abbrev dcol (c : Dev nD) : IVec SE1 32 := asCol (dstRaw (argE m c))
abbrev scol (c : Dev nD) : IVec SE1 32 := asCol (wrapNeg (srcRaw (argE m c)))
abbrev dinv (c : Dev nD) : FVec Ideal SN .f32 := dinvOf (degOf (dcol m c))

set_option maxRecDepth 16384 in
/-- The term, operation for operation, is `aggScaled` of the arguments. -/
theorem hostAgg_eq (c : Dev nD) :
    (hostAgg m c : SNK.Idx → EReal) = aggScaled (argX m c) (dcol m c) (scol m c) (dinv m c) := by
  unfold hostAgg
  rfl

/-- The kernel's first operand: the aggregated, twice-scaled features. -/
theorem V_agg (c : Dev nD) : (V m c main_v30 : SNK.Idx → EReal) = aggScaled (argX m c) (dcol m c) (scol m c) (dinv m c) :=
  (V_hostAgg m c).trans (hostAgg_eq m c)

/-- Its second operand: the weight matrix transposed. -/
theorem V_wt (c : Dev nD) : (V m c main_v32 : SKO.Idx → EReal)
    = truncf .bf16 (transpose SKO [1, 0] (argW m c) (by decide)) (by decide) := by
  dsimp only [V]
  simp only [hostOps0, hostOps0_1, hostOps0_2, List.flatten_cons, List.flatten_nil, List.append_nil, List.cons_append,
    List.nil_append]
  after_results_simp <;> rfl

/-- Its third operand: the bias as a row. -/
theorem V_bias (c : Dev nD) : (V m c main_v33 : S1O.Idx → EReal) = shapeCast S1O (argB m c) (by decide) := by
  dsimp only [V]
  simp only [hostOps0, hostOps0_1, hostOps0_2, List.flatten_cons, List.flatten_nil, List.append_nil, List.cons_append,
    List.nil_append]
  after_results_simp <;> rfl

end Cert.Gcn.Kernel

end
-- ==== Proof.KernelBody.lean ====
/-
  One grid point's arithmetic, read at an entry.

  The body multiplies its [5000, 128] block of features (narrowed to bf16: the identity here) with the whole
  [128, 256] transposed weight matrix into a zero accumulator, adds the bias row to every row and takes the maximum
  with zero.
-/
import proofs.«171751_j88837103550989_2_alg».proof.Proof.Gen.KernelIdeal.Skeleton
import proofs.«171751_j88837103550989_2_alg».proof.Proof.LibMatmulPlain
import Idealize.ShloMosaic.Lib.ValueLayout
import Idealize.ShloMosaic.Lib.Pipeline.Value

noncomputable section

open scoped BigOperators

namespace Cert.Gcn.Kernel

open Cert.KernelIdeal Cert.KernelIdeal.Gen Idealize.ShloMosaic Idealize.ShloMosaic.TcCoe Idealize.SL.Sem
open Idealize.ShloMosaic.ValueIdx
open Idealize.ShloMosaic.Pipeline (Dat)

/-! ## One grid point's arithmetic -/

/-- Entry (p, q) of what the body stores: the block's row p against column q of the transposed weights, plus
    the bias at q, rectified. -/
theorem pay_apply (x0 : FVec Ideal S5000x128 .f32) (x1 : FVec Ideal S128x256 .bf16) (x2 : FVec Ideal S1x256 .f32)
    (p : Fin 5000) (q : Fin 256) :
    k0_pay1 x0 x1 x2 (ix2 p q)
      = max ((∑ k : Fin 128, x0 (ix2 p k) * x1 (ix2 k q)) + x2 (ix2 (0 : Fin 1) q)) 0 := by
  unfold k0_pay1
  simp only [shapeCast_self]
  rw [maximumf_apply, addf_apply, broadcast_apply]
  have hm := Cert.LibMatmulPlain.matmul_plain_zero_apply (M := 5000) (K := 128) (N := 256)
    dot_S5000x128_S128x256_S5000x256_1_0_0_1_n_n rfl none (truncf .bf16 x0 bitsLt_bf16_f32) x1 p q
  have hb := broadcastTo_1b_ab_apply (a := 5000) x2 broadcasts_S1x256_S5000x256 p q
  exact congrArg₂ max (congrArg₂ (· + ·) hm hb) Ideal.ofBits_zero_f32

end Cert.Gcn.Kernel

end
-- ==== Proof.KernelValue.lean ====
/-
  The kernel's program at the ideal instance: its output array is the layer function `gcn`.

  Grid point t works on rows 5000·t … 5000·t + 4999: entry (p, q) of what it writes back is entry (5000·t + p, q) of
  `gcn` of the arguments, and the ten blocks tile the [50000, 256] output.
-/
import proofs.«171751_j88837103550989_2_alg».proof.Proof.Gen.KernelIdeal.Value
import proofs.«171751_j88837103550989_2_alg».proof.Proof.KernelHost
import proofs.«171751_j88837103550989_2_alg».proof.Proof.KernelBody
import Idealize.ShloMosaic.Lib.ValueLayout

noncomputable section

open scoped BigOperators

namespace Cert.Gcn.Kernel

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (m : (ℓ : Loc nD τ sig) → Buf (Elt Ideal) ℓ) (ρ : Dev nD → PrngReg)

/-! ## From blocks to the array -/

theorem hz : (![0, 0] : Fin 2 → Nat) = fun _ => 0 := funext fun a => by fin_cases a <;> rfl

/-- The printed index maps over the ten grid points: the feature block and the output block move with the point
    along the rows, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- The layer function of this run's arguments. -/
abbrev G (c : Dev nD) : FVec Ideal SNO .f32 := gcn (argX m c) (argW m c) (argB m c) (dcol m c) (scol m c) (dinv m c)

/-! ### Block reads: where each window's block at point `t` sits in its array -/

/-- Entry (p, q) of the output block of point `t` is entry (5000·t + p, q) of the output. -/
theorem emb_out (t : Fin cfg0.N) (p : Fin 5000) (q : Fin 256) (r : Fin 50000) (hr : r.val = t.val * 5000 + p.val) :
    ((cfg0.win 3).blk t).view.emb (ix2 p q) = ix2 r q := by
  obtain ⟨e00, e01, e10, e11, e20, e21, e30, e31, ht⟩ := idx_facts t
  funext a; apply Fin.ext
  match a with
  | ⟨0, _⟩ => show win0_3.index t (0 : Fin 2) * 5000 + 1 * p.val = r.val; omega
  | ⟨1, _⟩ => show win0_3.index t (1 : Fin 2) * 256 + 1 * q.val = q.val; omega

/-- Entry (p, k) of point `t`'s block of ANY [50000, 128] array is the array's entry (5000·t + p, k). -/
theorem read_rows (A : S50000x128.Idx → EReal) (t : Fin cfg0.N) (p : Fin 5000) (k : Fin 128) (r : Fin 50000)
    (hr : r.val = t.val * 5000 + p.val) :
    ((cfg0.win 0).blk t).view.read (Elt Ideal) A (ix2 p k) = A (ix2 r k) := by
  obtain ⟨e00, e01, e10, e11, e20, e21, e30, e31, ht⟩ := idx_facts t
  have e : ((cfg0.win 0).blk t).view.emb (ix2 p k) = ix2 r k := by
    funext a; apply Fin.ext
    match a with
    | ⟨0, _⟩ => show win0_0.index t (0 : Fin 2) * 5000 + 1 * p.val = r.val; omega
    | ⟨1, _⟩ => show win0_0.index t (1 : Fin 2) * 128 + 1 * k.val = k.val; omega
  show A (((cfg0.win 0).blk t).view.emb (ix2 p k)) = _
  rw [e]

/-- Entry (p, k) of the feature block of point `t` is entry (5000·t + p, k) of the aggregated features. -/
theorem read_agg (c : Dev nD) (t : Fin cfg0.N) (p : Fin 5000) (k : Fin 128) (r : Fin 50000)
    (hr : r.val = t.val * 5000 + p.val) :
    iblk m c 0 t (ix2 p k) = aggScaled (argX m c) (dcol m c) (scol m c) (dinv m c) (ix2 r k) := by
  unfold iblk
  refine (read_rows (V m c (Pipeline.arrRef spec0 0)) t p k r hr).trans ?_
  exact congrFun (V_agg m c) (ix2 r k)

/-- Entry (k, q) of the weight block (the whole transposed matrix) is W(q, k). -/
theorem read_wt (c : Dev nD) (t : Fin cfg0.N) (k : Fin 128) (q : Fin 256) :
    iblk m c 1 t (ix2 k q) = argW m c (ix2 q k) := by
  obtain ⟨e00, e01, e10, e11, e20, e21, e30, e31, ht⟩ := idx_facts t
  have e : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 256 + 1 * q.val = q.val; omega
  show V m c main_v32 (((cfg0.win 1).blk t).view.emb (ix2 k q)) = _
  rw [e]
  refine (congrFun (V_wt m c) (ix2 k q)).trans ?_
  exact transpose_ix2_apply (argW m c) _ k q

/-- Entry (0, q) of the bias block (the whole row) is b(q). -/
theorem read_bias (c : Dev nD) (t : Fin cfg0.N) (q : Fin 256) :
    iblk m c 2 t (ix2 (0 : Fin 1) q) = argB m c (ix1 q) := by
  obtain ⟨e00, e01, e10, e11, e20, e21, e30, e31, ht⟩ := idx_facts t
  have e : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 256 + 1 * q.val = q.val; omega
  show V m c main_v33 (((cfg0.win 2).blk t).view.emb (ix2 (0 : Fin 1) q)) = _
  rw [e]
  refine (congrFun (V_bias m c) (ix2 (0 : Fin 1) q)).trans ?_
  exact shapeCast_a_1a_apply (argB m c) _ 0 q

/-- A [5000, 256] block whose entry (p, q) is entry (5000·t + p, q) of an array IS that array's block at point `t`. -/
theorem cut_eq_read (w : Vec Ideal S5000x256 .f32) (A : S50000x256.Idx → EReal) (t : Fin cfg0.N)
    (h : ∀ (p : Fin 5000) (q : Fin 256) (r : Fin 50000), r.val = t.val * 5000 + p.val → w (ix2 p q) = A (ix2 r q)) :
    (cfg0.win 3).cut (grid0.coords t) w = ((cfg0.win 3).blk t).view.read (Elt Ideal) A := by
  obtain ⟨e00, e01, e10, e11, e20, e21, e30, e31, ht⟩ := idx_facts t
  funext j
  obtain ⟨p, q, rfl⟩ : ∃ (p : Fin 5000) (q : Fin 256), j = ix2 p q := ⟨j 0, j 1, eq_ix2 j⟩
  have hr : t.val * 5000 + p.val < 50000 := by have := p.isLt; omega
  show w (ix2 p q) = A (((cfg0.win 3).blk t).view.emb (ix2 p q))
  rw [emb_out t p q ⟨t.val * 5000 + p.val, hr⟩ rfl]
  exact h p q _ rfl

/-- WHAT POINT `t` WRITES BACK is block `t` of the layer function. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz]
  simp only [View.ld_unit_zero (S := S5000x128) hz, View.ld_unit_zero (S := S128x256) hz, View.ld_unit_zero (S := S1x256) hz]
  refine cut_eq_read _ (G m c) t fun p q r hr => ?_
  refine (pay_apply (iblk m c 0 t) (iblk m c 1 t) (iblk m c 2 t) p q).trans ?_
  show _ = max ((∑ k : Fin 128, aggScaled (argX m c) (dcol m c) (scol m c) (dinv m c) (ix2 r k) * argW m c (ix2 q k))
    + argB m c (ix1 q)) 0
  rw [read_bias m c t q]
  refine congrArg₂ max (congrArg₂ (· + ·) (Finset.sum_congr rfl fun k _ => ?_) rfl) rfl
  rw [read_agg m c t p k r hr, read_wt m c t k q]

/-- An index of the output is in point `t`'s block iff its row is among the block's 5000 rows. -/
theorem mem_blk (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v34).slice (win0_3.rect t)).set ↔ _
  rw [View.set_slice_whole, Rect.mem_set_unit]
  exact Iff.rfl

/-- Every output index is in the block of the point its row falls to. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : (i 0).val / 5000 < cfg0.N := by
    show (i 0).val / 5000 < grid0.N
    rw [N_0]; omega
  refine ⟨⟨(i 0).val / 5000, hN⟩, flush0_3 _, ?_⟩
  obtain ⟨_, _, _, _, _, _, e30, e31, _⟩ := idx_facts ⟨(i 0).val / 5000, hN⟩
  rw [mem_blk]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, hN⟩ (1 : Fin 2) * 256 ≤ (i 1).val
      ∧ (i 1).val < win0_3.index ⟨(i 0).val / 5000, hN⟩ (1 : Fin 2) * 256 + 256
    omega

/-- THE ARRAY after the run is the layer function. -/
theorem final (c : Dev nD) : (dats m 0 c).arrAt 3 cfg0.N = G m c :=
  (dats m 0 c).arrAt_eq_of_cover 3 (G m c) (fun t _ => flushed_eq m c t) cover

/-- The kernel's run: the result array ends at the layer function of the arguments, the arguments unchanged. -/
theorem run : θ_run defs (onTc (τ := τ) (main (F := Ideal))) ⟨m, fun _ => 0, ρ⟩ fun r => ∀ c : Dev nD,
      r.2.mem ((c : Thread nD τ).loc main_v34) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Gcn.Kernel

end
-- ==== Proof.RefValue.lean ====
/-
  The reference's program at the ideal instance: its result is the layer in the reference's arrangement.

  The composed term of the reference's run is, operation for operation, `refCore` applied to the arguments and to
  the edge columns and the degree normalisation computed from the edge list: the same operations in the same order,
  so the equation holds by unfolding the names.
-/
import proofs.«171751_j88837103550989_2_alg».proof.Proof.RefRunP
import proofs.«171751_j88837103550989_2_alg».proof.Proof.Spec

noncomputable section

namespace Cert.Gcn.Ref

open Cert.ReferenceIdeal Cert.ReferenceIdeal.Gen Idealize.ShloMosaic Idealize.ShloMosaic.TcCoe Idealize.SL.Sem
open Cert.Gcn

variable (m : (ℓ : Loc nD τ sig) → Buf (Elt Ideal) ℓ)

abbrev argX (c : Dev nD) : FVec Ideal SNK .f32 := m ((c.tc : Thread nD τ).loc main_arg0)
abbrev argE (c : Dev nD) : IVec SEI 32 := m ((c.tc : Thread nD τ).loc main_arg1)
abbrev argW (c : Dev nD) : FVec Ideal SOK .f32 := m ((c.tc : Thread nD τ).loc main_arg2)
abbrev argB (c : Dev nD) : FVec Ideal SO .f32 := m ((c.tc : Thread nD τ).loc main_arg3)

set_option maxRecDepth 16384 in
/-- The reference run's result term is `refCore` of the arguments. -/
theorem res_eq (c : Dev nD) :
    (Cert.ReferenceIdeal.ValueP.res_main_v48 m c : SNO.Idx → EReal)
      = refCore (argX m c) (argW m c) (argB m c) (asCol (dstRaw (argE m c))) (asCol (wrapNeg (srcRaw (argE m c))))
          (asCol (wrapNeg (dstRaw (argE m c)))) (dinvOf (degOf (asCol (dstRaw (argE m c))))) := by
  unfold Cert.ReferenceIdeal.ValueP.res_main_v48
  rfl

end Cert.Gcn.Ref

end
-- ==== Proof.Bridge.lean ====
/-
  The two arrangements of the layer are one function, for real-valued features, weights and normalisation.

  At node n and output column o the reference sums, over the edges e that end at n, the row (x · Wᵀ)(row e, o)
  weighted by d(row e) · d(target row of e); the kernel's arrangement sums the scaled feature rows first and applies
  the linear map afterwards.  For an edge that ends at n the target row IS n: the raw target word equals n, so it
  is not negative, is not wrapped, and clamps to itself (`row_wrapNeg_of_lands`).  With that, the two sides are
  the two sides of Algebra.lean's law, term by term.
-/
import proofs.«171751_j88837103550989_2_alg».proof.Proof.Spec
import Idealize.ShloMosaic.Lib.Affine

noncomputable section

open scoped BigOperators

namespace Cert.Gcn

open Idealize.ShloMosaic Idealize.ShloMosaic.ValueIdx Idealize.ShloMosaic.SegmentIdx

/-- A word that is a node number is not wrapped, and the gather's clamp leaves it alone. -/
theorem row_wrapNeg_of_lands (v : IVec SE 32) (e : Fin 850000) (n : Fin 50000)
    (h : (asCol v (ix2 e 0)).toInt = (n.val : ℤ)) : row (asCol (wrapNeg v)) e = n := by
  rw [asCol_apply] at h
  unfold row
  rw [asCol_apply]
  apply clampRow_of_eq
  have hsel : wrapNeg v (ix1 e) = v (ix1 e) := by
    show Scalar.select (IntOp.cmpi .slt (v (ix1 e)) (broadcastInDim SE ![] _ (constantI S0 32 0#32) (ix1 e)))
      (IntOp.addi (v (ix1 e)) (broadcastInDim SE ![] _ (constantI S0 32 50000#32) (ix1 e))) (v (ix1 e)) = _
    rw [splat_apply, splat_apply]
    have hc : IntOp.cmpi .slt (v (ix1 e)) (constantI S0 32 0#32 ix0) = 0#1 := by
      refine eq_zero_of_ne_one fun h1 => ?_
      have hlt := IntOp.cmpi_slt.mp h1
      rw [h] at hlt
      have h0 : (constantI S0 32 0#32 ix0).toInt = 0 := rfl
      rw [h0] at hlt
      omega
    rw [hc, select_zero]
  rw [hsel, h]

/-- THE BRIDGE: the reference's arrangement is the kernel's, when the features, the weights and the
    normalisation are real valued and every edge's target row is the node it lands on. -/
theorem refCore_eq_gcn (x : FVec Ideal SNK .f32) (W : FVec Ideal SOK .f32) (b : FVec Ideal SO .f32)
    (dcol scol dcolN : IVec SE1 32) (d : FVec Ideal SN .f32)
    (hx : ∀ i, ∃ r : ℝ, x i = (r : EReal)) (hW : ∀ i, ∃ r : ℝ, W i = (r : EReal)) (hd : ∀ i, ∃ r : ℝ, d i = (r : EReal))
    (hrow : ∀ (e : Fin 850000) (n : Fin 50000), (dcol (ix2 e 0)).toInt = (n.val : ℤ) → row dcolN e = n) :
    refCore x W b dcol scol dcolN d = gcn x W b dcol scol d := by
  funext i
  obtain ⟨n, o, rfl⟩ : ∃ (n : Fin 50000) (o : Fin 256), i = ix2 n o := ⟨i 0, i 1, eq_ix2 i⟩
  rw [refCore_apply]
  show _ = max ((∑ k : Fin 128, aggScaled x dcol scol d (ix2 n k) * W (ix2 o k)) + b (ix1 o)) 0
  simp only [aggScaled_apply]
  refine congrArg₂ max (congrArg₂ (· + ·) ?_ rfl) rfl
  choose xr hxr using hx
  choose wr hwr using hW
  choose dr hdr using hd
  have h1 : ∀ e : Fin 850000,
      (if (dcol (ix2 e 0)).toInt = (n.val : ℤ)
        then (∑ k : Fin 128, x (ix2 (row scol e) k) * W (ix2 o k)) * (d (ix1 (row scol e)) * d (ix1 (row dcolN e))) else 0)
      = (if (dcol (ix2 e 0)).toInt = (n.val : ℤ)
        then (∑ k : Fin 128, x (ix2 (row scol e) k) * W (ix2 o k)) * (d (ix1 (row scol e)) * d (ix1 n)) else 0) := fun e => by
    by_cases h : (dcol (ix2 e 0)).toInt = (n.val : ℤ)
    · rw [if_pos h, if_pos h, hrow e n h]
    · rw [if_neg h, if_neg h]
  simp only [h1]
  simp only [hxr, hwr, hdr]
  exact (Algebra.swap (fun e : Fin 850000 => (dcol (ix2 e 0)).toInt = (n.val : ℤ))
    (fun e k => xr (ix2 (row scol e) k)) (fun e => dr (ix1 (row scol e))) (dr (ix1 n)) (fun k => wr (ix2 o k))).symm

end Cert.Gcn

end
-- ==== Proof.Finite.lean ====
/-
  From the precondition to real numbers.

  The precondition says that every entry of the feature matrix, of the weight matrix and of the bias is smaller
  in absolute value than +∞ (each `jnp.all` an and-reduction of one-bit comparisons, the three joined by `and`).
  An extended real whose absolute value max(v, −v) is below +∞ is neither +∞ nor −∞: it is a real number.
-/
import proofs.«171751_j88837103550989_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Gcn.Finite

open Idealize.ShloMosaic Idealize.ShloMosaic.ValueIdx Cert.Pre_finite_inputs

instance : Subsingleton S_.Idx := ⟨fun a b => funext fun d => d.elim0⟩

/-- An extended real with absolute value below the pattern of +∞ is a real number. -/
theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => exact absurd h (by simp [Ideal.cmp])
  | top => exact absurd h (by simp [Ideal.cmp])
  | coe r => exact ⟨r, rfl⟩

/-- Under the precondition the feature matrix and the weight matrix are real valued. -/
theorem real_of_pre (x : FVec Ideal S50000x128 .f32) (ei : IVec S800000x2 32) (W : FVec Ideal S256x128 .f32)
    (b : FVec Ideal S256 .f32) (h : fn (F := Ideal) x ei W b = fun _ => 1#1) :
    (∀ i, ∃ r : ℝ, x i = (r : EReal)) ∧ (∀ i, ∃ r : ℝ, W i = (r : EReal)) := by
  have h0 := congrFun h ix0
  dsimp only [fn] at h0
  obtain ⟨h12, _⟩ := IntOp.andi_eq_one.mp h0
  obtain ⟨h1, h2⟩ := IntOp.andi_eq_one.mp h12
  refine ⟨fun i => ?_, fun i => ?_⟩
  · exact real_of_abs_lt (x i) (Host.reduce_andi_all _ _ _ _ ix0 h1 i)
  · exact real_of_abs_lt (W i) (Host.reduce_andi_all _ _ _ _ ix0 h2 i)

end Cert.Gcn.Finite

end
-- ==== Proof.lean ====
/-
  A graph-convolution layer, fused kernel against reference, equal over the extended reals.

  Both programs build the same edge columns from the integer edge list (the listed edges, then one self loop per
  node) and the same degree normalisation d = deg^(-1/2).  The kernel's program scales the 128-wide feature rows by
  d, adds every edge's source row into its target node, scales by d again, and hands the result to a fused kernel
  that applies the linear map (a matrix product with the transposed weights, row block by row block), the bias and
  the rectifier.  The reference applies the linear map to every node first, and adds every edge's 256-wide source
  row, weighted by d(source) · d(target), into its target node, then bias and rectifier.

  At the ideal instance the two results are one function: aggregation over incoming edges is linear, so it commutes
  with the linear map, and the target-side factor d(target) is the node's own d(n) for every edge that lands on n.
  Distributivity is what the exchange needs, and it holds because the features and the weights are real numbers
  (the precondition) and so is d (an inverse square root of a positive real, or zero).  The bias is added last on
  both sides and may be anything.

  The kernel's side (Proof/KernelValue.lean) reads the generated blockwise value leg; the reference's side
  (Proof/RefValue.lean) reads the reference's run; Proof/Bridge.lean joins them by the law of Proof/Algebra.lean.
-/
import proofs.«171751_j88837103550989_2_alg».proof.Defs
import proofs.«171751_j88837103550989_2_alg».proof.Proof.Gen.Kernel
import proofs.«171751_j88837103550989_2_alg».proof.Proof.Gen.Kernel.Skeleton
import proofs.«171751_j88837103550989_2_alg».proof.Proof.Gen.Kernel.Launch
import proofs.«171751_j88837103550989_2_alg».proof.Proof.Gen.Kernel.Points
import proofs.«171751_j88837103550989_2_alg».proof.Proof.Gen.Kernel.Frame
import proofs.«171751_j88837103550989_2_alg».proof.Proof.Gen.KernelIdeal
import proofs.«171751_j88837103550989_2_alg».proof.Proof.Gen.KernelIdeal.Skeleton
import proofs.«171751_j88837103550989_2_alg».proof.Proof.Gen.KernelIdeal.Launch
import proofs.«171751_j88837103550989_2_alg».proof.Proof.Gen.KernelIdeal.Points
import proofs.«171751_j88837103550989_2_alg».proof.Proof.Gen.KernelIdeal.Frame
import proofs.«171751_j88837103550989_2_alg».proof.Proof.Gen.KernelIdeal.Value
import proofs.«171751_j88837103550989_2_alg».proof.Proof.Gen.ReferenceIdeal
import proofs.«171751_j88837103550989_2_alg».proof.Proof.Gen.Pre_finite_inputs
import proofs.«171751_j88837103550989_2_alg».proof.Proof.RefRunP
import proofs.«171751_j88837103550989_2_alg».proof.Proof.KernelValue
import proofs.«171751_j88837103550989_2_alg».proof.Proof.RefValue
import proofs.«171751_j88837103550989_2_alg».proof.Proof.Bridge
import proofs.«171751_j88837103550989_2_alg».proof.Proof.Finite
import Idealize.ShloMosaic.Adequacy
import Idealize.ShloMosaic.Init

noncomputable section

namespace Cert.Proof

open Idealize.ShloMosaic Idealize.SL.Sem

/-- The kernel's program runs and leaves its arguments alone (the generated frame). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end with the layer function of the (agreeing) arguments in their result arrays. -/
theorem algebraic : Cert.algebraic_KernelIdeal_ReferenceIdeal := by
  intro m ρ m' ρ' hpre hagree
  refine ⟨fun c => Cert.Gcn.Kernel.G m c, Cert.Gcn.Kernel.run m ρ, ?_⟩
  refine (θ_run Cert.ReferenceIdeal.defs _ _).mono (fun _ h c => ⟨(h c).1.trans ?_, (h c).2⟩)
    (Cert.ReferenceIdeal.ValueP.run (F := Ideal) m' ρ')
  rw [Cert.Gcn.Ref.res_eq]
  unfold Cert.Gcn.Ref.argX Cert.Gcn.Ref.argE Cert.Gcn.Ref.argW Cert.Gcn.Ref.argB
  rw [(hagree c).1, (hagree c).2.1, (hagree c).2.2.1, (hagree c).2.2.2]
  obtain ⟨hx, hW⟩ := Cert.Gcn.Finite.real_of_pre _ _ _ _ (hpre c)
  exact Cert.Gcn.refCore_eq_gcn _ _ _ _ _ _ _ hx hW (fun i => Cert.Gcn.dinvOf_real _ i)
    (fun e n h => Cert.Gcn.row_wrapNeg_of_lands _ e n h)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
